-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S1024x1024 .f32) (main_arg8 : FVec F S1x1024 .f32) (main_arg9 : FVec F S1x1024 .f32) (main_arg10 : FVec F S1x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1x1024 .f32) (main_arg9 : FVec F S1x1024 .f32) (main_arg10 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1x1024 .f32) (main_arg9 : FVec F S1x1024 .f32) (main_arg10 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S1024x3072 : Shape := ⟨2, ![1024, 3072]⟩
abbrev S1024x2048 : Shape := ⟨2, ![1024, 2048]⟩
abbrev S1x2048 : Shape := ⟨2, ![1, 2048]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 18
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1024x2048, .f32⟩
  | .hbm, ⟨14, _⟩ => ⟨S1024x2048, .bf16⟩
  | .hbm, ⟨15, _⟩ => ⟨S1024x1024, .bf16⟩
  | .hbm, ⟨16, _⟩ => ⟨S1x2048, .f32⟩
  | .hbm, ⟨17, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S1x2048, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024x1024_S1024x1024_S1024x2048_d1 : Shape.Concatenates [S1024x1024, S1024x1024] S1024x2048 1
  concatenates_S1x1024_S1x1024_S1x2048_d1 : Shape.Concatenates [S1x1024, S1x1024] S1x2048 1
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x3072_o0_0_S256x2048 : S256x3072.Slices ![0, 0] S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x3072_o0_2048_S256x1024 : S256x3072.Slices ![0, 2048] S256x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  dot_S256x1024_S1024x3072_S256x3072_1_0_0_1_n_n_wf : DotDims.WF S256x1024 S1024x3072 S256x3072 [1] [0] [0] [1] [] []
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.FrameKernel.lean ====
/-
  The launch of the one region of this program, and the frame: the host operations before the region write only their
  own results, the region's body reads seven staged blocks and overwrites the whole staged output block, and the
  pipeline writes that block back at every grid point; so every weakly fair execution terminates without a fault,
  the eleven argument arrays end as launched, and the output array ends at what the library computes from the
  per-point contents of the staged output block. Stated for any float instance.
-/
import proofs.«163650_j1580547967860_2_alg».proof.Proof.Gen.Kernel.Launch
import proofs.«163650_j1580547967860_2_alg».proof.Proof.Gen.Kernel.Skeleton
import proofs.«163650_j1580547967860_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents after the six host operations
    (three concatenations along the columns and three changes of format). -/
abbrev atEntry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation before the launch writes argument 0. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 1. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 2. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 3. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 4. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 5. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 6. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 7. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 8. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 9. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 10. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's staged buffer holds its block at every point, whether the pipeline fetched it there or kept it
    from the point before (the block index did not move), provided the body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's post to the frame's -/

/-- In a state satisfying the launch's post the argument arrays are as launched: the two the pipeline stages block
    by block and the bias row it stages whole are inputs (never written back), the others no window stages, and no host
    operation writes any of them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (atEntry_arg0 m c))),
    ((h c).1 1).trans (((dats 0 c).arrAt_in 1 rfl _).trans ((hA c 1).trans (atEntry_arg1 m c))),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).2 main_arg5 (Pipeline.mem_restRefs_of main_arg5 (by decide) (by decide))).trans (atEntry_arg5 m c),
    ((h c).2 main_arg6 (Pipeline.mem_restRefs_of main_arg6 (by decide) (by decide))).trans (atEntry_arg6 m c),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).1 6).trans (((dats 0 c).arrAt_in 6 rfl _).trans ((hA c 6).trans (atEntry_arg10 m c)))⟩

/-- The frame's post from the launch's. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body -/

abbrev rRows : Rect S256x1024 := Rect.unit (s := S256x1024) ![0, 0] S256x1024.size inb_S256x1024_S256x1024_0_0
abbrev rWcat : Rect S1024x3072 := Rect.unit (s := S1024x3072) ![0, 0] S1024x3072.size inb_S1024x3072_S1024x3072_0_0
abbrev rUcat : Rect S1024x2048 := Rect.unit (s := S1024x2048) ![0, 0] S1024x2048.size inb_S1024x2048_S1024x2048_0_0
abbrev rU3 : Rect S1024x1024 := Rect.unit (s := S1024x1024) ![0, 0] S1024x1024.size inb_S1024x1024_S1024x1024_0_0
abbrev rBias2 : Rect S1x2048 := Rect.unit (s := S1x2048) ![0, 0] S1x2048.size inb_S1x2048_S1x2048_0_0
abbrev rBias : Rect S1x1024 := Rect.unit (s := S1x1024) ![0, 0] S1x1024.size inb_S1x1024_S1x1024_0_0

/-- The staged output block after the body: its one store, of the body's arithmetic on the seven loaded blocks. -/
def outBlock (x0 : Vec F S256x1024 .f32) (x1 : Vec F S256x1024 .f32) (x2 : Vec F S1024x3072 .bf16) (x3 : Vec F S1024x2048 .bf16) (x4 : Vec F S1024x1024 .bf16) (x5 : Vec F S1x2048 .f32) (x6 : Vec F S1x1024 .f32) : Vec F S256x1024 .f32 :=
  View.canon [⟨rRows, k0_pay1 (View.ld x0 rRows) (View.ld x1 rRows) (View.ld x2 rWcat) (View.ld x3 rUcat) (View.ld x5 rBias2) (View.ld x4 rU3) (View.ld x6 rBias)⟩]

/-- The one store covers the block. -/
theorem store_covers (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

set_option maxHeartbeats 1000000 in
/-- The body on whole staged buffers: the seven inputs are read and kept, the output buffer ends at `outBlock`. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S1x1024 .f32) (harg7 : arg7.IsWhole) (arg8 : Memref sig .tc .vmem S256x1024 .f32) (harg8 : arg8.IsWhole)
    (x0 : Vec F S256x1024 .f32) (x1 : Vec F S256x1024 .f32) (x2 : Vec F S1024x3072 .bf16) (x3 : Vec F S1024x2048 .bf16) (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The pipeline's proof data -/

/-- On core `c`: the arrays as the region finds them; after the body at point `t` each input's buffer still at its
    block and the output's at `outBlock` of the seven blocks; nothing else tracked. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => outBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem arr_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = outBlock (blockAt m c 0 t) (blockAt m c 1 t) (blockAt m c 2 t) (blockAt m c 3 t) (blockAt m c 4 t) (blockAt m c 5 t) (blockAt m c 6 t) := by dsimp only [dats]

theorem staged0 (c : Dev nD) (t : Fin cfg0.N) (d) : (dats m 0 c).before 0 t d = blockAt m c 0 t :=
  staged0_of m (dats m 0 c) (arr_eq m c 0) (after_0 m c) t d
theorem staged1 (c : Dev nD) (t : Fin cfg0.N) (d) : (dats m 0 c).before 1 t d = blockAt m c 1 t :=
  staged1_of m (dats m 0 c) (arr_eq m c 1) (after_1 m c) t d
theorem staged2 (c : Dev nD) (t : Fin cfg0.N) (d) : (dats m 0 c).before 2 t d = blockAt m c 2 t :=
  staged2_of m (dats m 0 c) (arr_eq m c 2) (after_2 m c) t d
theorem staged3 (c : Dev nD) (t : Fin cfg0.N) (d) : (dats m 0 c).before 3 t d = blockAt m c 3 t :=
  staged3_of m (dats m 0 c) (arr_eq m c 3) (after_3 m c) t d
theorem staged4 (c : Dev nD) (t : Fin cfg0.N) (d) : (dats m 0 c).before 4 t d = blockAt m c 4 t :=
  staged4_of m (dats m 0 c) (arr_eq m c 4) (after_4 m c) t d
theorem staged5 (c : Dev nD) (t : Fin cfg0.N) (d) : (dats m 0 c).before 5 t d = blockAt m c 5 t :=
  staged5_of m (dats m 0 c) (arr_eq m c 5) (after_5 m c) t d
theorem staged6 (c : Dev nD) (t : Fin cfg0.N) (d) : (dats m 0 c).before 6 t d = blockAt m c 6 t :=
  staged6_of m (dats m 0 c) (arr_eq m c 6) (after_6 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, each of the pipeline's arrays at what the library computes from the proof
    data and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := arr_eq m) (hΦ := fun _ _ => rfl)

/-- The frame, for any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (arr_eq m) (run_main m ρ)

end Cert.Kernel.Region

end
-- ==== Proof.FrameKernelIdeal.lean ====
/-
  The launch of the one region of this program, and the frame: the host operations before the region write only their
  own results, the region's body reads seven staged blocks and overwrites the whole staged output block, and the
  pipeline writes that block back at every grid point; so every weakly fair execution terminates without a fault,
  the eleven argument arrays end as launched, and the output array ends at what the library computes from the
  per-point contents of the staged output block. Stated for any float instance.
-/
import proofs.«163650_j1580547967860_2_alg».proof.Proof.Gen.KernelIdeal.Launch
import proofs.«163650_j1580547967860_2_alg».proof.Proof.Gen.KernelIdeal.Skeleton
import proofs.«163650_j1580547967860_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents after the six host operations
    (three concatenations along the columns and three changes of format). -/
abbrev atEntry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No host operation before the launch writes argument 0. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 1. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 2. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 3. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 4. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 5. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 6. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 7. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 8. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 9. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the launch writes argument 10. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's staged buffer holds its block at every point, whether the pipeline fetched it there or kept it
    from the point before (the block index did not move), provided the body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's post to the frame's -/

/-- In a state satisfying the launch's post the argument arrays are as launched: the two the pipeline stages block
    by block and the bias row it stages whole are inputs (never written back), the others no window stages, and no host
    operation writes any of them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (atEntry_arg0 m c))),
    ((h c).1 1).trans (((dats 0 c).arrAt_in 1 rfl _).trans ((hA c 1).trans (atEntry_arg1 m c))),
    ((h c).2 main_arg2 (Pipeline.mem_restRefs_of main_arg2 (by decide) (by decide))).trans (atEntry_arg2 m c),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).2 main_arg5 (Pipeline.mem_restRefs_of main_arg5 (by decide) (by decide))).trans (atEntry_arg5 m c),
    ((h c).2 main_arg6 (Pipeline.mem_restRefs_of main_arg6 (by decide) (by decide))).trans (atEntry_arg6 m c),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).1 6).trans (((dats 0 c).arrAt_in 6 rfl _).trans ((hA c 6).trans (atEntry_arg10 m c)))⟩

/-- The frame's post from the launch's. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body -/

abbrev rRows : Rect S256x1024 := Rect.unit (s := S256x1024) ![0, 0] S256x1024.size inb_S256x1024_S256x1024_0_0
abbrev rWcat : Rect S1024x3072 := Rect.unit (s := S1024x3072) ![0, 0] S1024x3072.size inb_S1024x3072_S1024x3072_0_0
abbrev rUcat : Rect S1024x2048 := Rect.unit (s := S1024x2048) ![0, 0] S1024x2048.size inb_S1024x2048_S1024x2048_0_0
abbrev rU3 : Rect S1024x1024 := Rect.unit (s := S1024x1024) ![0, 0] S1024x1024.size inb_S1024x1024_S1024x1024_0_0
abbrev rBias2 : Rect S1x2048 := Rect.unit (s := S1x2048) ![0, 0] S1x2048.size inb_S1x2048_S1x2048_0_0
abbrev rBias : Rect S1x1024 := Rect.unit (s := S1x1024) ![0, 0] S1x1024.size inb_S1x1024_S1x1024_0_0

/-- The staged output block after the body: its one store, of the body's arithmetic on the seven loaded blocks. -/
def outBlock (x0 : Vec F S256x1024 .f32) (x1 : Vec F S256x1024 .f32) (x2 : Vec F S1024x3072 .bf16) (x3 : Vec F S1024x2048 .bf16) (x4 : Vec F S1024x1024 .bf16) (x5 : Vec F S1x2048 .f32) (x6 : Vec F S1x1024 .f32) : Vec F S256x1024 .f32 :=
  View.canon [⟨rRows, k0_pay1 (View.ld x0 rRows) (View.ld x1 rRows) (View.ld x2 rWcat) (View.ld x3 rUcat) (View.ld x5 rBias2) (View.ld x4 rU3) (View.ld x6 rBias)⟩]

/-- The one store covers the block. -/
theorem store_covers (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

set_option maxHeartbeats 1000000 in
/-- The body on whole staged buffers: the seven inputs are read and kept, the output buffer ends at `outBlock`. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S1x1024 .f32) (harg7 : arg7.IsWhole) (arg8 : Memref sig .tc .vmem S256x1024 .f32) (harg8 : arg8.IsWhole)
    (x0 : Vec F S256x1024 .f32) (x1 : Vec F S256x1024 .f32) (x2 : Vec F S1024x3072 .bf16) (x3 : Vec F S1024x2048 .bf16) (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The pipeline's proof data -/

/-- On core `c`: the arrays as the region finds them; after the body at point `t` each input's buffer still at its
    block and the output's at `outBlock` of the seven blocks; nothing else tracked. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => outBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem arr_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = outBlock (blockAt m c 0 t) (blockAt m c 1 t) (blockAt m c 2 t) (blockAt m c 3 t) (blockAt m c 4 t) (blockAt m c 5 t) (blockAt m c 6 t) := by dsimp only [dats]

theorem staged0 (c : Dev nD) (t : Fin cfg0.N) (d) : (dats m 0 c).before 0 t d = blockAt m c 0 t :=
  staged0_of m (dats m 0 c) (arr_eq m c 0) (after_0 m c) t d
theorem staged1 (c : Dev nD) (t : Fin cfg0.N) (d) : (dats m 0 c).before 1 t d = blockAt m c 1 t :=
  staged1_of m (dats m 0 c) (arr_eq m c 1) (after_1 m c) t d
theorem staged2 (c : Dev nD) (t : Fin cfg0.N) (d) : (dats m 0 c).before 2 t d = blockAt m c 2 t :=
  staged2_of m (dats m 0 c) (arr_eq m c 2) (after_2 m c) t d
theorem staged3 (c : Dev nD) (t : Fin cfg0.N) (d) : (dats m 0 c).before 3 t d = blockAt m c 3 t :=
  staged3_of m (dats m 0 c) (arr_eq m c 3) (after_3 m c) t d
theorem staged4 (c : Dev nD) (t : Fin cfg0.N) (d) : (dats m 0 c).before 4 t d = blockAt m c 4 t :=
  staged4_of m (dats m 0 c) (arr_eq m c 4) (after_4 m c) t d
theorem staged5 (c : Dev nD) (t : Fin cfg0.N) (d) : (dats m 0 c).before 5 t d = blockAt m c 5 t :=
  staged5_of m (dats m 0 c) (arr_eq m c 5) (after_5 m c) t d
theorem staged6 (c : Dev nD) (t : Fin cfg0.N) (d) : (dats m 0 c).before 6 t d = blockAt m c 6 t :=
  staged6_of m (dats m 0 c) (arr_eq m c 6) (after_6 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, each of the pipeline's arrays at what the library computes from the proof
    data and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := arr_eq m) (hΦ := fun _ _ => rfl)

/-- The frame, for any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (arr_eq m) (run_main m ρ)

end Cert.KernelIdeal.Region

end
-- ==== Proof.Spec.lean ====
/-
  The gated recurrent cell, one batch row at a time, on the extended reals.

  For a row x of the input and a row h of the state (each of length 1024), weight matrices W1 W2 W3 (input side) and
  U1 U2 U3 (state side), all 1024 x 1024, and three bias rows:
      r_k = logistic (x . W1[:,k] + h . U1[:,k] + b_r[k])            (reset gate)
      z_q = logistic (x . W2[:,q] + h . U2[:,q] + b_g[q])            (update gate)
      c_q = tanh (x . W3[:,q] + (r * h) . U3[:,q] + b_u[q])          (candidate)
      out_q = z_q * h_q + (1 - z_q) * c_q.
  Entry q of the result for a batch row depends on that row of the input and of the state only: this is what lets a
  computation on blocks of rows be compared with one on the whole batch.
-/
import Idealize.ShloMosaic.PureOps.Ideal
import Idealize.ShloMosaic.Lib.ValueIdx

noncomputable section

open scoped BigOperators

namespace Cert.Gru

open Idealize.ShloMosaic Idealize.ShloMosaic.ValueIdx

/-- The dot product of a row with a column, both of length 1024, summed in index order. -/
def rowdot (v B : Fin 1024 → EReal) : EReal := ∑ k : Fin 1024, v k * B k

/-- One gate: the logistic function of (input row . input-side column) + (state row . state-side column) + bias. -/
def gate (xr hr Wc Uc : Fin 1024 → EReal) (b : EReal) : EReal :=
  Ideal.logistic (rowdot xr Wc + rowdot hr Uc + b)

/-- Entry `q` of the new state of one batch row (matrices as functions of row index then column index). -/
def cell (xr hr : Fin 1024 → EReal) (W1 W2 W3 U1 U2 U3 : Fin 1024 → Fin 1024 → EReal) (br bg bu : Fin 1024 → EReal)
    (q : Fin 1024) : EReal :=
  gate xr hr (fun k => W2 k q) (fun k => U2 k q) (bg q) * hr q
    + (1 - gate xr hr (fun k => W2 k q) (fun k => U2 k q) (bg q))
      * Ideal.tanh (rowdot xr (fun k => W3 k q)
          + rowdot (fun k => gate xr hr (fun k' => W1 k' k) (fun k' => U1 k' k) (br k) * hr k) (fun k => U3 k q)
          + bu q)

/-- A batch of `n` rows: entry (p, q) of the new state, from the argument arrays. -/
def entry {n : ℕ} (x h : (⟨2, ![n, 1024]⟩ : Shape).Idx → EReal)
    (W1 W2 W3 U1 U2 U3 : (⟨2, ![1024, 1024]⟩ : Shape).Idx → EReal)
    (br bg bu : (⟨2, ![1, 1024]⟩ : Shape).Idx → EReal) (p : Fin n) (q : Fin 1024) : EReal :=
  cell (fun k => x (ix2 p k)) (fun k => h (ix2 p k))
    (fun k j => W1 (ix2 k j)) (fun k j => W2 (ix2 k j)) (fun k j => W3 (ix2 k j))
    (fun k j => U1 (ix2 k j)) (fun k j => U2 (ix2 k j)) (fun k j => U3 (ix2 k j))
    (fun j => br (ix2 (0 : Fin 1) j)) (fun j => bg (ix2 (0 : Fin 1) j)) (fun j => bu (ix2 (0 : Fin 1) j)) q

/-- The whole result array for the batch of 8192 rows. -/
def result (x h : (⟨2, ![8192, 1024]⟩ : Shape).Idx → EReal)
    (W1 W2 W3 U1 U2 U3 : (⟨2, ![1024, 1024]⟩ : Shape).Idx → EReal)
    (br bg bu : (⟨2, ![1, 1024]⟩ : Shape).Idx → EReal) : (⟨2, ![8192, 1024]⟩ : Shape).Idx → EReal :=
  fun i => entry x h W1 W2 W3 U1 U2 U3 br bg bu (i 0) (i 1)

end Cert.Gru

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Payload.lean ====
/-
  The body's arithmetic on one block of 256 batch rows, read at an entry. The three input-side weight matrices arrive
  joined along the columns (1024 x 3072), the first two state-side ones likewise (1024 x 2048), the first two bias rows
  likewise (1 x 2048). One product of the input block with the joined input-side matrix and one of the state block with
  the joined state-side matrix give, column block by column block, the pre-activations of both gates and the input
  part of the candidate; the third product takes (reset gate * state). Entry (a, q) of the stored block is the cell of
  `Spec.lean` for row a of the two blocks, with the matrices read at the column blocks 0, 1024 and 2048.
-/
import proofs.«163650_j1580547967860_2_alg».proof.Proof.Gen.KernelIdeal.Skeleton
import proofs.«163650_j1580547967860_2_alg».proof.Proof.Spec
import proofs.«163650_j1580547967860_2_alg».proof.Proof.LibMatmulSum
import Idealize.ShloMosaic.Lib.Pipeline.Value
import Idealize.ShloMosaic.Lib.IdealHost
import Idealize.ShloMosaic.PureOps.Ideal.Laws

noncomputable section

open scoped BigOperators

namespace Cert.KernelIdeal.Payload

open Cert.KernelIdeal Cert.KernelIdeal.Facts₀ Idealize.ShloMosaic Idealize.ShloMosaic.ValueIdx Cert.LibMatmulSum

/-! ## The three products are plain row-by-column products -/

theorem plainW : Plain dot_S256x1024_S1024x3072_S256x3072_1_0_0_1_n_n where
  rank := rfl
  size := rfl
  l0 := fun i q => by
    unfold DotDims.lhsIdx
    rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
    rfl
  l1 := fun i q => dot_S256x1024_S1024x3072_S256x3072_1_0_0_1_n_n.lhsIdx_val_of_single rfl i q
  r0 := fun i q => dot_S256x1024_S1024x3072_S256x3072_1_0_0_1_n_n.rhsIdx_val_of_single rfl i q
  r1 := fun i q => by
    unfold DotDims.rhsIdx
    rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
    rfl

theorem plainU : Plain dot_S256x1024_S1024x2048_S256x2048_1_0_0_1_n_n where
  rank := rfl
  size := rfl
  l0 := fun i q => by
    unfold DotDims.lhsIdx
    rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
    rfl
  l1 := fun i q => dot_S256x1024_S1024x2048_S256x2048_1_0_0_1_n_n.lhsIdx_val_of_single rfl i q
  r0 := fun i q => dot_S256x1024_S1024x2048_S256x2048_1_0_0_1_n_n.rhsIdx_val_of_single rfl i q
  r1 := fun i q => by
    unfold DotDims.rhsIdx
    rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
    rfl

theorem plainU3 : Plain dot_S256x1024_S1024x1024_S256x1024_1_0_0_1_n_n where
  rank := rfl
  size := rfl
  l0 := fun i q => by
    unfold DotDims.lhsIdx
    rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
    rfl
  l1 := fun i q => dot_S256x1024_S1024x1024_S256x1024_1_0_0_1_n_n.lhsIdx_val_of_single rfl i q
  r0 := fun i q => dot_S256x1024_S1024x1024_S256x1024_1_0_0_1_n_n.rhsIdx_val_of_single rfl i q
  r1 := fun i q => by
    unfold DotDims.rhsIdx
    rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
    rfl

/-! ## Columns of the joined matrices -/

/-- Column `q` of column block `b` (0, 1 or 2) of a matrix of 3072 columns. -/
abbrev col3 (b : ℕ) (hb : b < 3) (q : Fin 1024) : Fin 3072 := ⟨b * 1024 + q.val, by have := q.isLt; omega⟩
/-- Column `q` of column block `b` (0 or 1) of a matrix of 2048 columns. -/
abbrev col2 (b : ℕ) (hb : b < 2) (q : Fin 1024) : Fin 2048 := ⟨b * 1024 + q.val, by have := q.isLt; omega⟩
/-- A column below 2048 as a column of the matrix of 3072 columns. -/
abbrev widen (j : Fin 2048) : Fin 3072 := ⟨j.val, by have := j.isLt; omega⟩

/-! ## The body's stages -/

variable (x0 h0 : FVec Ideal S256x1024 .f32) (wcat : FVec Ideal S1024x3072 .bf16) (ucat : FVec Ideal S1024x2048 .bf16)
  (brg : FVec Ideal S1x2048 .f32) (u3 : FVec Ideal S1024x1024 .bf16) (bu : FVec Ideal S1x1024 .f32)

/-- input block x joined input-side matrix -/
def xW : FVec Ideal S256x3072 .f32 :=
  matmul dot_S256x1024_S1024x3072_S256x3072_1_0_0_1_n_n none (truncf .bf16 x0 bitsLt_bf16_f32) (shapeCast S1024x3072 wcat shapeCasts_S1024x3072_S1024x3072) (constant S256x3072 .f32 0x00000000#32)
/-- state block x joined state-side matrix -/
def hU : FVec Ideal S256x2048 .f32 :=
  matmul dot_S256x1024_S1024x2048_S256x2048_1_0_0_1_n_n none (truncf .bf16 h0 bitsLt_bf16_f32) (shapeCast S1024x2048 ucat shapeCasts_S1024x2048_S1024x2048) (constant S256x2048 .f32 0x00000000#32)
/-- the two gates' pre-activations, side by side -/
def pre : FVec Ideal S256x2048 .f32 :=
  addf (addf (extractStridedSlice S256x2048 ![0, 0] (xW x0 wcat) slices_S256x3072_o0_0_S256x2048) (hU h0 ucat))
    (broadcastTo S256x2048 (shapeCast S1x2048 brg shapeCasts_S1x2048_S1x2048) broadcasts_S1x2048_S256x2048)
/-- the reset gate -/
def rG : FVec Ideal S256x1024 .f32 :=
  logistic (extractStridedSlice S256x1024 ![0, 0] (pre x0 h0 wcat ucat brg) slices_S256x2048_o0_0_S256x1024)
/-- the update gate -/
def zG : FVec Ideal S256x1024 .f32 :=
  logistic (extractStridedSlice S256x1024 ![0, 1024] (pre x0 h0 wcat ucat brg) slices_S256x2048_o0_1024_S256x1024)
/-- (reset gate * state) x third state-side matrix -/
def rhU : FVec Ideal S256x1024 .f32 :=
  matmul dot_S256x1024_S1024x1024_S256x1024_1_0_0_1_n_n none (truncf .bf16 (mulf (rG x0 h0 wcat ucat brg) h0) bitsLt_bf16_f32)
    (shapeCast S1024x1024 u3 shapeCasts_S1024x1024_S1024x1024) (constant S256x1024 .f32 0x00000000#32)
/-- the candidate -/
def cand : FVec Ideal S256x1024 .f32 :=
  tanh (addf (addf (extractStridedSlice S256x1024 ![0, 2048] (xW x0 wcat) slices_S256x3072_o0_2048_S256x1024) (rhU x0 h0 wcat ucat brg u3))
    (broadcastTo S256x1024 bu broadcasts_S1x1024_S256x1024))

/-- The generated payload is these stages combined: update * state + (1 - update) * candidate. -/
theorem pay_eq : Gen.k0_pay1 (F := Ideal) x0 h0 wcat ucat brg u3 bu
    = addf (mulf (zG x0 h0 wcat ucat brg) h0)
        (mulf (subf (broadcast S256x1024 (Scalar.ofBits .f32 0x3F800000#32)) (zG x0 h0 wcat ucat brg)) (cand x0 h0 wcat ucat brg u3 bu)) := rfl

/-! ## Each stage at an entry -/

theorem xW_at (a : Fin 256) (j : Fin 3072) : xW x0 wcat (ix2 a j) = ∑ k : Fin 1024, x0 (ix2 a k) * wcat (ix2 k j) :=
  (matmul_zero_at plainW none _ _ a j).trans (Finset.sum_congr rfl fun k _ => by rw [shapeCast_self]; rfl)

theorem hU_at (a : Fin 256) (j : Fin 2048) : hU h0 ucat (ix2 a j) = ∑ k : Fin 1024, h0 (ix2 a k) * ucat (ix2 k j) :=
  (matmul_zero_at plainU none _ _ a j).trans (Finset.sum_congr rfl fun k _ => by rw [shapeCast_self]; rfl)

theorem pre_at (a : Fin 256) (j : Fin 2048) :
    pre x0 h0 wcat ucat brg (ix2 a j) = xW x0 wcat (ix2 a (widen j)) + hU h0 ucat (ix2 a j) + brg (ix2 (0 : Fin 1) j) := by
  have e1 := extractStridedSlice_apply ![0, 0] (xW x0 wcat) slices_S256x3072_o0_0_S256x2048 (ix2 a j) (ix2 a (widen j)) (fun b => by
    match b with
    | ⟨0, _⟩ => show a.val = 0 + a.val; omega
    | ⟨1, _⟩ => show j.val = 0 + j.val; omega)
  have e2 := broadcastTo_apply (shapeCast S1x2048 brg shapeCasts_S1x2048_S1x2048) broadcasts_S1x2048_S256x2048 (ix2 a j) (ix2 (0 : Fin 1) j) (fun b => by
    match b with
    | ⟨0, _⟩ => show (0 : ℕ) = if (1 : ℕ) = 1 then 0 else a.val; rw [if_pos rfl]
    | ⟨1, _⟩ => show j.val = if (2048 : ℕ) = 1 then 0 else j.val; rw [if_neg (by decide)])
  rw [pre, addf_apply, addf_apply, e1, e2, shapeCast_self]

theorem rG_at (a : Fin 256) (q : Fin 1024) :
    rG x0 h0 wcat ucat brg (ix2 a q) = Ideal.logistic (pre x0 h0 wcat ucat brg (ix2 a (col2 0 (by decide) q))) := by
  have e1 := extractStridedSlice_apply ![0, 0] (pre x0 h0 wcat ucat brg) slices_S256x2048_o0_0_S256x1024 (ix2 a q) (ix2 a (col2 0 (by decide) q)) (fun b => by
    match b with
    | ⟨0, _⟩ => show a.val = 0 + a.val; omega
    | ⟨1, _⟩ => show 0 * 1024 + q.val = 0 + q.val; omega)
  show Ideal.logistic (extractStridedSlice S256x1024 ![0, 0] (pre x0 h0 wcat ucat brg) slices_S256x2048_o0_0_S256x1024 (ix2 a q)) = _
  rw [e1]

theorem zG_at (a : Fin 256) (q : Fin 1024) :
    zG x0 h0 wcat ucat brg (ix2 a q) = Ideal.logistic (pre x0 h0 wcat ucat brg (ix2 a (col2 1 (by decide) q))) := by
  have e1 := extractStridedSlice_apply ![0, 1024] (pre x0 h0 wcat ucat brg) slices_S256x2048_o0_1024_S256x1024 (ix2 a q) (ix2 a (col2 1 (by decide) q)) (fun b => by
    match b with
    | ⟨0, _⟩ => show a.val = 0 + a.val; omega
    | ⟨1, _⟩ => show 1 * 1024 + q.val = 1024 + q.val; omega)
  show Ideal.logistic (extractStridedSlice S256x1024 ![0, 1024] (pre x0 h0 wcat ucat brg) slices_S256x2048_o0_1024_S256x1024 (ix2 a q)) = _
  rw [e1]

theorem rhU_at (a : Fin 256) (q : Fin 1024) :
    rhU x0 h0 wcat ucat brg u3 (ix2 a q) = ∑ k : Fin 1024, (rG x0 h0 wcat ucat brg (ix2 a k) * h0 (ix2 a k)) * u3 (ix2 k q) :=
  (matmul_zero_at plainU3 none _ _ a q).trans (Finset.sum_congr rfl fun k _ => by rw [shapeCast_self]; rfl)

theorem cand_at (a : Fin 256) (q : Fin 1024) :
    cand x0 h0 wcat ucat brg u3 bu (ix2 a q)
      = Ideal.tanh (xW x0 wcat (ix2 a (col3 2 (by decide) q)) + rhU x0 h0 wcat ucat brg u3 (ix2 a q) + bu (ix2 (0 : Fin 1) q)) := by
  have e1 := extractStridedSlice_apply ![0, 2048] (xW x0 wcat) slices_S256x3072_o0_2048_S256x1024 (ix2 a q) (ix2 a (col3 2 (by decide) q)) (fun b => by
    match b with
    | ⟨0, _⟩ => show a.val = 0 + a.val; omega
    | ⟨1, _⟩ => show 2 * 1024 + q.val = 2048 + q.val; omega)
  have e2 := broadcastTo_apply bu broadcasts_S1x1024_S256x1024 (ix2 a q) (ix2 (0 : Fin 1) q) (fun b => by
    match b with
    | ⟨0, _⟩ => show (0 : ℕ) = if (1 : ℕ) = 1 then 0 else a.val; rw [if_pos rfl]
    | ⟨1, _⟩ => show q.val = if (1024 : ℕ) = 1 then 0 else q.val; rw [if_neg (by decide)])
  show Ideal.tanh (extractStridedSlice S256x1024 ![0, 2048] (xW x0 wcat) slices_S256x3072_o0_2048_S256x1024 (ix2 a q)
      + rhU x0 h0 wcat ucat brg u3 (ix2 a q) + broadcastTo S256x1024 bu broadcasts_S1x1024_S256x1024 (ix2 a q)) = _
  rw [e1, e2]

/-- A gate's pre-activation in column block `b` is the gate of `Spec.lean` on row `a` of the two blocks. -/
theorem gate_at (b : ℕ) (hb : b < 2) (a : Fin 256) (q : Fin 1024) :
    Ideal.logistic (pre x0 h0 wcat ucat brg (ix2 a (col2 b hb q)))
      = Cert.Gru.gate (fun k => x0 (ix2 a k)) (fun k => h0 (ix2 a k))
          (fun k => wcat (ix2 k (col3 b (by omega) q))) (fun k => ucat (ix2 k (col2 b hb q))) (brg (ix2 (0 : Fin 1) (col2 b hb q))) := by
  rw [pre_at, xW_at, hU_at]
  rfl

/-- THE PAYLOAD AT AN ENTRY: the cell for row `a` of the input and state blocks. -/
theorem pay_at (a : Fin 256) (q : Fin 1024) :
    Gen.k0_pay1 (F := Ideal) x0 h0 wcat ucat brg u3 bu (ix2 a q)
      = Cert.Gru.cell (fun k => x0 (ix2 a k)) (fun k => h0 (ix2 a k))
          (fun k j => wcat (ix2 k (col3 0 (by decide) j))) (fun k j => wcat (ix2 k (col3 1 (by decide) j))) (fun k j => wcat (ix2 k (col3 2 (by decide) j)))
          (fun k j => ucat (ix2 k (col2 0 (by decide) j))) (fun k j => ucat (ix2 k (col2 1 (by decide) j))) (fun k j => u3 (ix2 k j))
          (fun j => brg (ix2 (0 : Fin 1) (col2 0 (by decide) j))) (fun j => brg (ix2 (0 : Fin 1) (col2 1 (by decide) j))) (fun j => bu (ix2 (0 : Fin 1) j)) q := by
  rw [pay_eq]
  show zG x0 h0 wcat ucat brg (ix2 a q) * h0 (ix2 a q)
      + (Ideal.ofBits .f32 0x3F800000#32 - zG x0 h0 wcat ucat brg (ix2 a q)) * cand x0 h0 wcat ucat brg u3 bu (ix2 a q) = _
  rw [zG_at, cand_at, rhU_at, xW_at, Ideal.ofBits_one_f32, gate_at]
  simp only [rG_at, gate_at]
  rfl

end Cert.KernelIdeal.Payload

end
-- ==== Proof.KernelValue.lean ====
/-
  The kernel program's result array. The six host operations before the region join the three input-side weight
  matrices, the first two state-side ones and the first two bias rows along the columns; grid point t stages rows
  256 t .. 256 t + 255 of the input and of the state, and the joined matrices, the third state-side matrix and the
  bias rows whole; the body's stored block is, entry by entry, the cell of `Spec.lean` on those rows (`Payload.lean`),
  and the pipeline writes it back to rows 256 t .. 256 t + 255 of the result. The 32 blocks tile the result, so the
  result array is `Cert.Gru.result` of the argument arrays.
-/
import proofs.«163650_j1580547967860_2_alg».proof.Proof.FrameKernelIdeal
import proofs.«163650_j1580547967860_2_alg».proof.Proof.Payload
import Idealize.ShloMosaic.Lib.StableHlo.Run

set_option maxRecDepth 16384

noncomputable section

namespace Cert.KernelIdeal.Blocks

open Cert.KernelIdeal Cert.KernelIdeal.Gen Cert.KernelIdeal.Region Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the region finds in the joined buffers -/

theorem entry_v1 (c : Dev nD) : @Eq (FVec Ideal S1024x3072 .bf16) (atEntry m c main_v1)
    (truncf .bf16 (concatenate (α := EReal) S1024x3072 1 [⟨S1024x1024, m ((c : Thread nD τ).loc main_arg2)⟩, ⟨S1024x1024, m ((c : Thread nD τ).loc main_arg3)⟩, ⟨S1024x1024, m ((c : Thread nD τ).loc main_arg4)⟩] concatenates_S1024x1024_S1024x1024_S1024x1024_S1024x3072_d1) bitsLt_bf16_f32) := by
  dsimp only [atEntry, hostOps0]; after_results; try rfl

theorem entry_v3 (c : Dev nD) : @Eq (FVec Ideal S1024x2048 .bf16) (atEntry m c main_v3)
    (truncf .bf16 (concatenate (α := EReal) S1024x2048 1 [⟨S1024x1024, m ((c : Thread nD τ).loc main_arg5)⟩, ⟨S1024x1024, m ((c : Thread nD τ).loc main_arg6)⟩] concatenates_S1024x1024_S1024x1024_S1024x2048_d1) bitsLt_bf16_f32) := by
  dsimp only [atEntry, hostOps0]; after_results; try rfl

theorem entry_v4 (c : Dev nD) : @Eq (FVec Ideal S1024x1024 .bf16) (atEntry m c main_v4)
    (truncf .bf16 (m ((c : Thread nD τ).loc main_arg7) : FVec Ideal S1024x1024 .f32) bitsLt_bf16_f32) := by
  dsimp only [atEntry, hostOps0]; after_results; try rfl

theorem entry_v5 (c : Dev nD) : @Eq (FVec Ideal S1x2048 .f32) (atEntry m c main_v5)
    (concatenate (α := EReal) S1x2048 1 [⟨S1x1024, m ((c : Thread nD τ).loc main_arg8)⟩, ⟨S1x1024, m ((c : Thread nD τ).loc main_arg9)⟩] concatenates_S1x1024_S1x1024_S1x2048_d1) := by
  dsimp only [atEntry, hostOps0]; after_results; try rfl

/-! ## A joined array read at a column of one of its pieces -/

section Joined
variable {α : Type}

/-- Three 1024 x 1024 matrices joined along the columns: column `q` of column block `b` is column `q` of piece `b`. -/
theorem joined3_at (A B C : S1024x1024.Idx → α) (h : Shape.Concatenates [S1024x1024, S1024x1024, S1024x1024] S1024x3072 1) (k q : Fin 1024) :
    concatenate S1024x3072 1 [⟨S1024x1024, A⟩, ⟨S1024x1024, B⟩, ⟨S1024x1024, C⟩] h (ix2 k (col3 0 (by decide) q)) = A (ix2 k q)
    ∧ concatenate S1024x3072 1 [⟨S1024x1024, A⟩, ⟨S1024x1024, B⟩, ⟨S1024x1024, C⟩] h (ix2 k (col3 1 (by decide) q)) = B (ix2 k q)
    ∧ concatenate S1024x3072 1 [⟨S1024x1024, A⟩, ⟨S1024x1024, B⟩, ⟨S1024x1024, C⟩] h (ix2 k (col3 2 (by decide) q)) = C (ix2 k q) := by
  refine ⟨?_, ?_, ?_⟩
  · exact concatenate_apply_piece (t := S1024x3072) 1 [⟨S1024x1024, A⟩, ⟨S1024x1024, B⟩, ⟨S1024x1024, C⟩] h (ix2 k (col3 0 (by decide) q)) 0 (by show 0 < 3; omega) S1024x1024 A rfl rfl 0 rfl (ix2 k q)
      (fun b hb => by match b with
        | ⟨0, _⟩ => rfl
        | ⟨1, _⟩ => exact absurd rfl hb)
      (by show 0 + q.val = 0 * 1024 + q.val; omega)
  · exact concatenate_apply_piece (t := S1024x3072) 1 [⟨S1024x1024, A⟩, ⟨S1024x1024, B⟩, ⟨S1024x1024, C⟩] h (ix2 k (col3 1 (by decide) q)) 1 (by show 1 < 3; omega) S1024x1024 B rfl rfl 1024 rfl (ix2 k q)
      (fun b hb => by match b with
        | ⟨0, _⟩ => rfl
        | ⟨1, _⟩ => exact absurd rfl hb)
      (by show 1024 + q.val = 1 * 1024 + q.val; omega)
  · exact concatenate_apply_piece (t := S1024x3072) 1 [⟨S1024x1024, A⟩, ⟨S1024x1024, B⟩, ⟨S1024x1024, C⟩] h (ix2 k (col3 2 (by decide) q)) 2 (by show 2 < 3; omega) S1024x1024 C rfl rfl 2048 rfl (ix2 k q)
      (fun b hb => by match b with
        | ⟨0, _⟩ => rfl
        | ⟨1, _⟩ => exact absurd rfl hb)
      (by show 2048 + q.val = 2 * 1024 + q.val; omega)

/-- Two 1024 x 1024 matrices joined along the columns. -/
theorem joined2_at (A B : S1024x1024.Idx → α) (h : Shape.Concatenates [S1024x1024, S1024x1024] S1024x2048 1) (k q : Fin 1024) :
    concatenate S1024x2048 1 [⟨S1024x1024, A⟩, ⟨S1024x1024, B⟩] h (ix2 k (col2 0 (by decide) q)) = A (ix2 k q)
    ∧ concatenate S1024x2048 1 [⟨S1024x1024, A⟩, ⟨S1024x1024, B⟩] h (ix2 k (col2 1 (by decide) q)) = B (ix2 k q) := by
  refine ⟨?_, ?_⟩
  · exact concatenate_apply_piece (t := S1024x2048) 1 [⟨S1024x1024, A⟩, ⟨S1024x1024, B⟩] h (ix2 k (col2 0 (by decide) q)) 0 (by show 0 < 2; omega) S1024x1024 A rfl rfl 0 rfl (ix2 k q)
      (fun b hb => by match b with
        | ⟨0, _⟩ => rfl
        | ⟨1, _⟩ => exact absurd rfl hb)
      (by show 0 + q.val = 0 * 1024 + q.val; omega)
  · exact concatenate_apply_piece (t := S1024x2048) 1 [⟨S1024x1024, A⟩, ⟨S1024x1024, B⟩] h (ix2 k (col2 1 (by decide) q)) 1 (by show 1 < 2; omega) S1024x1024 B rfl rfl 1024 rfl (ix2 k q)
      (fun b hb => by match b with
        | ⟨0, _⟩ => rfl
        | ⟨1, _⟩ => exact absurd rfl hb)
      (by show 1024 + q.val = 1 * 1024 + q.val; omega)

/-- Two rows of length 1024 joined into one row of length 2048. -/
theorem joinedRow_at (A B : S1x1024.Idx → α) (h : Shape.Concatenates [S1x1024, S1x1024] S1x2048 1) (q : Fin 1024) :
    concatenate S1x2048 1 [⟨S1x1024, A⟩, ⟨S1x1024, B⟩] h (ix2 (0 : Fin 1) (col2 0 (by decide) q)) = A (ix2 (0 : Fin 1) q)
    ∧ concatenate S1x2048 1 [⟨S1x1024, A⟩, ⟨S1x1024, B⟩] h (ix2 (0 : Fin 1) (col2 1 (by decide) q)) = B (ix2 (0 : Fin 1) q) := by
  refine ⟨?_, ?_⟩
  · exact concatenate_apply_piece (t := S1x2048) 1 [⟨S1x1024, A⟩, ⟨S1x1024, B⟩] h (ix2 (0 : Fin 1) (col2 0 (by decide) q)) 0 (by show 0 < 2; omega) S1x1024 A rfl rfl 0 rfl (ix2 (0 : Fin 1) q)
      (fun b hb => by match b with
        | ⟨0, _⟩ => rfl
        | ⟨1, _⟩ => exact absurd rfl hb)
      (by show 0 + q.val = 0 * 1024 + q.val; omega)
  · exact concatenate_apply_piece (t := S1x2048) 1 [⟨S1x1024, A⟩, ⟨S1x1024, B⟩] h (ix2 (0 : Fin 1) (col2 1 (by decide) q)) 1 (by show 1 < 2; omega) S1x1024 B rfl rfl 1024 rfl (ix2 (0 : Fin 1) q)
      (fun b hb => by match b with
        | ⟨0, _⟩ => rfl
        | ⟨1, _⟩ => exact absurd rfl hb)
      (by show 1024 + q.val = 1 * 1024 + q.val; omega)

end Joined

/-! ## The index maps, decided over the 32 grid points -/

/-- The input, the state and the result move one block of rows per point; the other five windows stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 32 := lt_of_lt_of_eq t.isLt N_0

/-- Row `a` of the block of rows at point `t`, as a row of the whole batch. -/
abbrev rowOf (t : Fin cfg0.N) (a : Fin 256) : Fin 8192 := ⟨t.val * 256 + a.val, by have := point_lt t; have := a.isLt; omega⟩

/-! ## The staged blocks, read off the launch contents -/

theorem rows_input (c : Dev nD) (t : Fin cfg0.N) (a : Fin 256) (k : Fin 1024) :
    blockAt m c 0 t (ix2 a k) = m ((c : Thread nD τ).loc main_arg0) (ix2 (rowOf t a) k) := by
  obtain ⟨e0, e1, -⟩ := index_facts t
  have he : ((cfg0.win 0).blk t).view.emb (ix2 a k) = ix2 (rowOf t a) k := by
    funext d; apply Fin.ext
    match d with
    | ⟨0, _⟩ => show win0_0.index t (0 : Fin 2) * 256 + 1 * a.val = t.val * 256 + a.val; omega
    | ⟨1, _⟩ => show win0_0.index t (1 : Fin 2) * 1024 + 1 * k.val = k.val; omega
  show atEntry m c main_arg0 (((cfg0.win 0).blk t).view.emb (ix2 a k)) = _
  rw [he, atEntry_arg0]

theorem rows_state (c : Dev nD) (t : Fin cfg0.N) (a : Fin 256) (k : Fin 1024) :
    blockAt m c 1 t (ix2 a k) = m ((c : Thread nD τ).loc main_arg1) (ix2 (rowOf t a) k) := by
  obtain ⟨-, -, e0, e1, -⟩ := index_facts t
  have he : ((cfg0.win 1).blk t).view.emb (ix2 a k) = ix2 (rowOf t a) k := by
    funext d; apply Fin.ext
    match d with
    | ⟨0, _⟩ => show win0_1.index t (0 : Fin 2) * 256 + 1 * a.val = t.val * 256 + a.val; omega
    | ⟨1, _⟩ => show win0_1.index t (1 : Fin 2) * 1024 + 1 * k.val = k.val; omega
  show atEntry m c main_arg1 (((cfg0.win 1).blk t).view.emb (ix2 a k)) = _
  rw [he, atEntry_arg1]

/-- The joined input-side matrix is staged whole. -/
theorem whole_wcat (c : Dev nD) (t : Fin cfg0.N) (k : Fin 1024) (j : Fin 3072) :
    blockAt m c 2 t (ix2 k j) = atEntry m c main_v1 (ix2 k j) := by
  obtain ⟨-, -, -, -, -, -, e0, e1, -⟩ := index_facts t
  have he : ((cfg0.win 2).blk t).view.emb (ix2 k j) = ix2 k j := by
    funext d; apply Fin.ext
    match d with
    | ⟨0, _⟩ => show win0_2.index t (0 : Fin 2) * 1024 + 1 * k.val = k.val; omega
    | ⟨1, _⟩ => show win0_2.index t (1 : Fin 2) * 3072 + 1 * j.val = j.val; omega
  show atEntry m c main_v1 (((cfg0.win 2).blk t).view.emb (ix2 k j)) = _
  rw [he]

theorem whole_ucat (c : Dev nD) (t : Fin cfg0.N) (k : Fin 1024) (j : Fin 2048) :
    blockAt m c 3 t (ix2 k j) = atEntry m c main_v3 (ix2 k j) := by
  obtain ⟨-, -, -, -, -, -, -, -, e0, e1, -⟩ := index_facts t
  have he : ((cfg0.win 3).blk t).view.emb (ix2 k j) = ix2 k j := by
    funext d; apply Fin.ext
    match d with
    | ⟨0, _⟩ => show win0_3.index t (0 : Fin 2) * 1024 + 1 * k.val = k.val; omega
    | ⟨1, _⟩ => show win0_3.index t (1 : Fin 2) * 2048 + 1 * j.val = j.val; omega
  show atEntry m c main_v3 (((cfg0.win 3).blk t).view.emb (ix2 k j)) = _
  rw [he]

theorem whole_u3 (c : Dev nD) (t : Fin cfg0.N) (k : Fin 1024) (j : Fin 1024) :
    blockAt m c 4 t (ix2 k j) = atEntry m c main_v4 (ix2 k j) := by
  obtain ⟨-, -, -, -, -, -, -, -, -, -, e0, e1, -⟩ := index_facts t
  have he : ((cfg0.win 4).blk t).view.emb (ix2 k j) = ix2 k j := by
    funext d; apply Fin.ext
    match d with
    | ⟨0, _⟩ => show win0_4.index t (0 : Fin 2) * 1024 + 1 * k.val = k.val; omega
    | ⟨1, _⟩ => show win0_4.index t (1 : Fin 2) * 1024 + 1 * j.val = j.val; omega
  show atEntry m c main_v4 (((cfg0.win 4).blk t).view.emb (ix2 k j)) = _
  rw [he]

theorem whole_brg (c : Dev nD) (t : Fin cfg0.N) (j : Fin 2048) :
    blockAt m c 5 t (ix2 (0 : Fin 1) j) = atEntry m c main_v5 (ix2 (0 : Fin 1) j) := by
  obtain ⟨-, -, -, -, -, -, -, -, -, -, -, -, e0, e1, -⟩ := index_facts t
  have he : ((cfg0.win 5).blk t).view.emb (ix2 (0 : Fin 1) j) = ix2 (0 : Fin 1) j := by
    funext d; apply Fin.ext
    match d with
    | ⟨0, _⟩ => show win0_5.index t (0 : Fin 2) * 1 + 1 * 0 = 0; omega
    | ⟨1, _⟩ => show win0_5.index t (1 : Fin 2) * 2048 + 1 * j.val = j.val; omega
  show atEntry m c main_v5 (((cfg0.win 5).blk t).view.emb (ix2 (0 : Fin 1) j)) = _
  rw [he]

theorem whole_bu (c : Dev nD) (t : Fin cfg0.N) (j : Fin 1024) :
    blockAt m c 6 t (ix2 (0 : Fin 1) j) = m ((c : Thread nD τ).loc main_arg10) (ix2 (0 : Fin 1) j) := by
  obtain ⟨-, -, -, -, -, -, -, -, -, -, -, -, -, -, e0, e1⟩ := index_facts t
  have he : ((cfg0.win 6).blk t).view.emb (ix2 (0 : Fin 1) j) = ix2 (0 : Fin 1) j := by
    funext d; apply Fin.ext
    match d with
    | ⟨0, _⟩ => show win0_6.index t (0 : Fin 2) * 1 + 1 * 0 = 0; omega
    | ⟨1, _⟩ => show win0_6.index t (1 : Fin 2) * 1024 + 1 * j.val = j.val; omega
  show atEntry m c main_arg10 (((cfg0.win 6).blk t).view.emb (ix2 (0 : Fin 1) j)) = _
  rw [he, atEntry_arg10]

/-! ## What a point writes back -/

theorem hz : (![0, 0] : Fin 2 → Nat) = fun _ => 0 := funext fun a => by fin_cases a <;> rfl

/-- The whole result array, from the launch contents of the eleven arguments. -/
abbrev resultOf (c : Dev nD) : S8192x1024.Idx → EReal :=
  Cert.Gru.result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The staged joined input-side matrix at column block 0, 1, 2 is the first, second, third input-side matrix. -/
theorem wcat_cols (c : Dev nD) (t : Fin cfg0.N) (k q : Fin 1024) :
    blockAt m c 2 t (ix2 k (col3 0 (by decide) q)) = m ((c : Thread nD τ).loc main_arg2) (ix2 k q)
    ∧ blockAt m c 2 t (ix2 k (col3 1 (by decide) q)) = m ((c : Thread nD τ).loc main_arg3) (ix2 k q)
    ∧ blockAt m c 2 t (ix2 k (col3 2 (by decide) q)) = m ((c : Thread nD τ).loc main_arg4) (ix2 k q) := by
  rw [whole_wcat, whole_wcat, whole_wcat, entry_v1]
  exact joined3_at (α := EReal) (m ((c : Thread nD τ).loc main_arg2)) (m ((c : Thread nD τ).loc main_arg3)) (m ((c : Thread nD τ).loc main_arg4)) concatenates_S1024x1024_S1024x1024_S1024x1024_S1024x3072_d1 k q

/-- The staged joined state-side matrix at column block 0, 1 is the first, second state-side matrix. -/
theorem ucat_cols (c : Dev nD) (t : Fin cfg0.N) (k q : Fin 1024) :
    blockAt m c 3 t (ix2 k (col2 0 (by decide) q)) = m ((c : Thread nD τ).loc main_arg5) (ix2 k q)
    ∧ blockAt m c 3 t (ix2 k (col2 1 (by decide) q)) = m ((c : Thread nD τ).loc main_arg6) (ix2 k q) := by
  rw [whole_ucat, whole_ucat, entry_v3]
  exact joined2_at (α := EReal) (m ((c : Thread nD τ).loc main_arg5)) (m ((c : Thread nD τ).loc main_arg6)) concatenates_S1024x1024_S1024x1024_S1024x2048_d1 k q

theorem u3_at (c : Dev nD) (t : Fin cfg0.N) (k q : Fin 1024) :
    blockAt m c 4 t (ix2 k q) = m ((c : Thread nD τ).loc main_arg7) (ix2 k q) := by
  rw [whole_u3, entry_v4]
  rfl

/-- The staged joined bias row at column block 0, 1 is the first, second bias row. -/
theorem brg_cols (c : Dev nD) (t : Fin cfg0.N) (q : Fin 1024) :
    blockAt m c 5 t (ix2 (0 : Fin 1) (col2 0 (by decide) q)) = m ((c : Thread nD τ).loc main_arg8) (ix2 (0 : Fin 1) q)
    ∧ blockAt m c 5 t (ix2 (0 : Fin 1) (col2 1 (by decide) q)) = m ((c : Thread nD τ).loc main_arg9) (ix2 (0 : Fin 1) q) := by
  rw [whole_brg, whole_brg, entry_v5]
  exact joinedRow_at (α := EReal) (m ((c : Thread nD τ).loc main_arg8)) (m ((c : Thread nD τ).loc main_arg9)) concatenates_S1x1024_S1x1024_S1x2048_d1 q

/-- Entry (a, q) of the block stored at point `t` is entry (256 t + a, q) of the result. -/
theorem stored_at (c : Dev nD) (t : Fin cfg0.N) (a : Fin 256) (q : Fin 1024) :
    k0_pay1 (F := Ideal) (blockAt m c 0 t) (blockAt m c 1 t) (blockAt m c 2 t) (blockAt m c 3 t) (blockAt m c 5 t) (blockAt m c 4 t) (blockAt m c 6 t) (ix2 a q)
      = resultOf m c (ix2 (rowOf t a) q) := by
  have w1 := fun k j => (wcat_cols m c t k j).1
  have w2 := fun k j => (wcat_cols m c t k j).2.1
  have w3 := fun k j => (wcat_cols m c t k j).2.2
  have u1 := fun k j => (ucat_cols m c t k j).1
  have u2 := fun k j => (ucat_cols m c t k j).2
  have b1 := fun j => (brg_cols m c t j).1
  have b2 := fun j => (brg_cols m c t j).2
  rw [pay_at]
  simp only [rows_input, rows_state, w1, w2, w3, u1, u2, u3_at, b1, b2, whole_bu]
  rfl

/-- WHAT POINT `t` WRITES BACK is block `t` of the result. -/
theorem flushed_eq (c : Dev nD) (t : Fin cfg0.N) :
    (dats m 0 c).flushed 7 t = ((cfg0.win 7).blk t).view.read (Elt Ideal) (resultOf m c) := by
  show (cfg0.win 7).cut (grid0.coords t) ((dats m 0 c).after 7 t) = _
  rw [after_7]
  unfold outBlock
  rw [View.canon_unit_zero hz]
  simp only [View.ld_unit_zero (S := S256x1024) hz, View.ld_unit_zero (S := S1024x3072) hz, View.ld_unit_zero (S := S1024x2048) hz,
    View.ld_unit_zero (S := S1024x1024) hz, View.ld_unit_zero (S := S1x2048) hz, View.ld_unit_zero (S := S1x1024) hz]
  funext y
  obtain ⟨a, q, rfl⟩ : ∃ (a : Fin 256) (q : Fin 1024), y = ix2 a q := ⟨y 0, y 1, eq_ix2 y⟩
  obtain ⟨-, -, -, -, e0, e1, -⟩ := index_facts t
  have he : ((cfg0.win 7).blk t).view.emb (ix2 a q) = ix2 (rowOf t a) q := by
    funext d; apply Fin.ext
    match d with
    | ⟨0, _⟩ => show win0_7.index t (0 : Fin 2) * 256 + 1 * a.val = t.val * 256 + a.val; omega
    | ⟨1, _⟩ => show win0_7.index t (1 : Fin 2) * 1024 + 1 * q.val = q.val; omega
  show k0_pay1 (F := Ideal) (blockAt m c 0 t) (blockAt m c 1 t) (blockAt m c 2 t) (blockAt m c 3 t) (blockAt m c 5 t) (blockAt m c 4 t) (blockAt m c 6 t) (ix2 a q)
      = resultOf m c (((cfg0.win 7).blk t).view.emb (ix2 a q))
  rw [he]
  exact stored_at m c t a q

/-! ## The 32 blocks tile the result -/

theorem mem_blk (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6).slice (win0_7.rect t)).set ↔ _
  rw [View.set_slice_whole, Rect.mem_set_unit]
  exact Iff.rfl

/-- Row r of the result lies in the block of point r / 256. -/
theorem covered (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 256 < cfg0.N := by rw [show cfg0.N = 32 from N_0]; omega
  obtain ⟨-, -, -, -, e0, e1, -⟩ := index_facts ⟨(i 0).val / 256, hN⟩
  refine ⟨⟨(i 0).val / 256, hN⟩, flush0_7 _, ?_⟩
  rw [mem_blk]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    rw [e1]; omega

/-- THE RESULT ARRAY after the run. -/
theorem final (c : Dev nD) : (dats m 0 c).arrAt 7 cfg0.N = resultOf m c :=
  (dats m 0 c).arrAt_eq_of_cover 7 (resultOf m c) (fun t _ => flushed_eq m c t) covered

/-! ## The run, read -/

/-- Every weakly fair execution terminates with the result array at `Cert.Gru.result` of the launch contents of the
    arguments, and the arguments unchanged. -/
theorem run : θ_run defs (onTc (τ := τ) (main (F := Ideal))) ⟨m, fun _ => 0, ρ⟩ fun r => ∀ c : Dev nD,
      r.2.mem ((c.tc : Thread nD τ).loc main_v6) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 7).trans (final m c), args_kept m (dats m) (arr_eq m) r h c⟩) (run_main m ρ)

end Cert.KernelIdeal.Blocks

end
-- ==== Proof.RefValue.lean ====
/-
  The reference program's result, read at an index, is the gated recurrent cell of `Spec.lean`: its five products with
  the input and the state are row-by-column sums, its two gates are 1 / (1 + exp (-s)), which on the extended reals is
  the logistic function, and the candidate's product takes the row (reset gate * state).
-/
import proofs.«163650_j1580547967860_2_alg».proof.Proof.Gen.ReferenceIdeal.Read
import proofs.«163650_j1580547967860_2_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-! The operand indices of a product at entry (p, q) and summand k are (p, k) and (k, q); a bias row is read at (0, q). -/

theorem l0 (p : Fin 8192) (q k : Fin 1024) : lidx_main_v0 (ix2 p q) k = ix2 p k :=
  funext fun a => Fin.ext (by match a with | ⟨0, _⟩ => rfl | ⟨1, _⟩ => rfl)
theorem r0 (p : Fin 8192) (q k : Fin 1024) : ridx_main_v0 (ix2 p q) k = ix2 k q :=
  funext fun a => Fin.ext (by match a with | ⟨0, _⟩ => rfl | ⟨1, _⟩ => rfl)
theorem l1 (p : Fin 8192) (q k : Fin 1024) : lidx_main_v1 (ix2 p q) k = ix2 p k :=
  funext fun a => Fin.ext (by match a with | ⟨0, _⟩ => rfl | ⟨1, _⟩ => rfl)
theorem r1 (p : Fin 8192) (q k : Fin 1024) : ridx_main_v1 (ix2 p q) k = ix2 k q :=
  funext fun a => Fin.ext (by match a with | ⟨0, _⟩ => rfl | ⟨1, _⟩ => rfl)
theorem l2 (p : Fin 8192) (q k : Fin 1024) : lidx_main_v2 (ix2 p q) k = ix2 p k :=
  funext fun a => Fin.ext (by match a with | ⟨0, _⟩ => rfl | ⟨1, _⟩ => rfl)
theorem r2 (p : Fin 8192) (q k : Fin 1024) : ridx_main_v2 (ix2 p q) k = ix2 k q :=
  funext fun a => Fin.ext (by match a with | ⟨0, _⟩ => rfl | ⟨1, _⟩ => rfl)
theorem l3 (p : Fin 8192) (q k : Fin 1024) : lidx_main_v3 (ix2 p q) k = ix2 p k :=
  funext fun a => Fin.ext (by match a with | ⟨0, _⟩ => rfl | ⟨1, _⟩ => rfl)
theorem r3 (p : Fin 8192) (q k : Fin 1024) : ridx_main_v3 (ix2 p q) k = ix2 k q :=
  funext fun a => Fin.ext (by match a with | ⟨0, _⟩ => rfl | ⟨1, _⟩ => rfl)
theorem l4 (p : Fin 8192) (q k : Fin 1024) : lidx_main_v4 (ix2 p q) k = ix2 p k :=
  funext fun a => Fin.ext (by match a with | ⟨0, _⟩ => rfl | ⟨1, _⟩ => rfl)
theorem r4 (p : Fin 8192) (q k : Fin 1024) : ridx_main_v4 (ix2 p q) k = ix2 k q :=
  funext fun a => Fin.ext (by match a with | ⟨0, _⟩ => rfl | ⟨1, _⟩ => rfl)
theorem l24 (p : Fin 8192) (q k : Fin 1024) : lidx_main_v24 (ix2 p q) k = ix2 p k :=
  funext fun a => Fin.ext (by match a with | ⟨0, _⟩ => rfl | ⟨1, _⟩ => rfl)
theorem r24 (p : Fin 8192) (q k : Fin 1024) : ridx_main_v24 (ix2 p q) k = ix2 k q :=
  funext fun a => Fin.ext (by match a with | ⟨0, _⟩ => rfl | ⟨1, _⟩ => rfl)
theorem b6 (p : Fin 8192) (q : Fin 1024) : idx_main_v6 (ix2 p q) = ix2 (0 : Fin 1) q :=
  funext fun a => Fin.ext (by match a with | ⟨0, _⟩ => rfl | ⟨1, _⟩ => rfl)
theorem b15 (p : Fin 8192) (q : Fin 1024) : idx_main_v15 (ix2 p q) = ix2 (0 : Fin 1) q :=
  funext fun a => Fin.ext (by match a with | ⟨0, _⟩ => rfl | ⟨1, _⟩ => rfl)
theorem b26 (p : Fin 8192) (q : Fin 1024) : idx_main_v26 (ix2 p q) = ix2 (0 : Fin 1) q :=
  funext fun a => Fin.ext (by match a with | ⟨0, _⟩ => rfl | ⟨1, _⟩ => rfl)

/-- The reference's last stage is the cell, index by index. -/
theorem result_eq (x0 x1 : (⟨S8192x1024, .f32⟩ : BufTy).Contents (Elt Ideal))
    (x2 x3 x4 x5 x6 x7 : (⟨S1024x1024, .f32⟩ : BufTy).Contents (Elt Ideal))
    (x8 x9 x10 : (⟨S1x1024, .f32⟩ : BufTy).Contents (Elt Ideal)) :
    val_main_v33 (F := Ideal) x0 x1 x2 x3 x4 x5 x6 x7 x8 x9 x10
      = Cert.Gru.result x0 x1 x2 x3 x4 x5 x6 x7 x8 x9 x10 := by
  funext i
  obtain ⟨p, q, rfl⟩ : ∃ (p : Fin 8192) (q : Fin 1024), i = ix2 p q := ⟨i 0, i 1, eq_ix2 i⟩
  simp only [val_main_v33_apply, val_main_v32_apply, val_main_v31_apply, val_main_v30_apply, val_main_cst_3_apply,
    val_main_v29_apply, val_main_v28_apply, val_main_v27_apply, val_main_v26_apply, val_main_v25_apply,
    val_main_v24_apply, val_main_v23_apply, val_main_v22_apply, val_main_v21_apply, val_main_cst_2_apply,
    val_main_v20_apply, val_main_v19_apply, val_main_cst_1_apply, val_main_v18_apply, val_main_v17_apply,
    val_main_v16_apply, val_main_v15_apply, val_main_v14_apply, val_main_v13_apply, val_main_v12_apply,
    val_main_cst_0_apply, val_main_v11_apply, val_main_v10_apply, val_main_cst_apply, val_main_v9_apply,
    val_main_v8_apply, val_main_v7_apply, val_main_v6_apply, val_main_v5_apply, val_main_v4_apply,
    val_main_v3_apply, val_main_v2_apply, val_main_v1_apply, val_main_v0_apply,
    l0, r0, l1, r1, l2, r2, l3, r3, l4, r4, l24, r24, b6, b15, b26,
    Ideal.addf_def, Ideal.subf_def, Ideal.mulf_def, Ideal.hostDivf_def, Ideal.hostNegf_def, Ideal.negf_def,
    Ideal.hostUnary_exp_def, Ideal.hostUnary_tanh_def, Ideal.ofBits_def, Ideal.ofBits_one_f32]
  rfl

end Cert.ReferenceIdeal.RefValue

end
-- ==== Proof.lean ====
/-
  A gated recurrent cell on a batch of 8192 rows: a pipelined kernel over 32 blocks of 256 rows, with the weight
  matrices joined along the columns beforehand, against the reference that computes the whole batch with five separate
  products. On the extended reals both compute, for every batch row, the cell of `Proof/Spec.lean`:
      r = logistic (x W1 + h U1 + b_r),  z = logistic (x W2 + h U2 + b_g),
      c = tanh (x W3 + (r * h) U3 + b_u),  result = z * h + (1 - z) * c,
  every product a row-by-column sum in the same order on both sides, so no law of arithmetic beyond unfolding is needed
  (in particular none that would ask the inputs to be finite).
    * the three frames: the two kernel programs by the launch of their one region (`Proof/FrameKernel.lean`,
      `Proof/FrameKernelIdeal.lean`), the reference by its run;
    * the idealization rewrote nothing, so its statement is trivial;
    * the value claim: the kernel program's result array is the cell of its arguments (`Proof/KernelValue.lean`: each
      point writes back the block of rows it was staged, and the blocks tile the array), and so is the reference's
      (`Proof/RefValue.lean`).
-/
import proofs.«163650_j1580547967860_2_alg».proof.Defs
import proofs.«163650_j1580547967860_2_alg».proof.Proof.Gen.Kernel
import proofs.«163650_j1580547967860_2_alg».proof.Proof.Gen.KernelIdeal
import proofs.«163650_j1580547967860_2_alg».proof.Proof.Gen.ReferenceIdeal
import proofs.«163650_j1580547967860_2_alg».proof.Proof.Gen.ReferenceIdeal.Run
import proofs.«163650_j1580547967860_2_alg».proof.Proof.Gen.ReferenceIdeal.Read
import proofs.«163650_j1580547967860_2_alg».proof.Proof.Gen.Pre_finite_inputs
import proofs.«163650_j1580547967860_2_alg».proof.Proof.FrameKernel
import proofs.«163650_j1580547967860_2_alg».proof.Proof.KernelValue
import proofs.«163650_j1580547967860_2_alg».proof.Proof.RefValue

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the cell of the argument arrays, which agree. -/
theorem algebraic : Cert.algebraic_KernelIdeal_ReferenceIdeal := by
  intro m ρ m' ρ' _ hagree
  refine ⟨fun c => Cert.KernelIdeal.Blocks.resultOf m c, Cert.KernelIdeal.Blocks.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v33_eq, Cert.ReferenceIdeal.RefValue.result_eq,
    a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
